-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S86x32 : Shape := ⟨2, ![86, 32]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S86x32 : S_.BroadcastsInDim S86x32 (![] : Fin 0 → Fin S86x32.rank)
  reducesTo_S86x32_S_d0_1 : S86x32.ReducesTo [0, 1] S_

variable [Facts]

def fn {F : FTy → Type} [FloatOps F] (main_arg0 : FVec F S4x2048x4096 .f32) (main_arg1 : FVec F S11008x4096 .f32) (main_arg2 : FVec F S86x32 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S86x32 .f32 := Host.absf main_arg2
  let main_cst_2 : FVec F S_ .f32 := constant S_ .f32 0x7F800000#32
  let main_v10 : FVec F S86x32 .f32 := broadcastInDim S86x32 ![] bcast_S_S86x32 main_cst_2
  let main_v11 : IVec S86x32 1 := cmpf .olt main_v9 main_v10
  let main_c_3 : IVec S_ 1 := constantI S_ 1 1#1
  let main_v12 : IVec S_ 1 := (fun x v => Host.reduce IntOp.andi x v reducesTo_S86x32_S_d0_1 h_S_) main_v11 main_c_3
  let main_v13 : IVec S_ 1 := andi main_v8 main_v12
  main_v13
-- ==== Kernel.lean ====
abbrev S4x2048x4096 : Shape := ⟨3, ![4, 2048, 4096]⟩
abbrev S11008x4096 : Shape := ⟨2, ![11008, 4096]⟩
abbrev S86x32 : Shape := ⟨2, ![86, 32]⟩
abbrev S8192x4096 : Shape := ⟨2, ![8192, 4096]⟩
abbrev S86x128x32 : Shape := ⟨3, ![86, 128, 32]⟩
abbrev S11008x32 : Shape := ⟨2, ![11008, 32]⟩
abbrev S8192x11008 : Shape := ⟨2, ![8192, 11008]⟩
abbrev S1024x4096 : Shape := ⟨2, ![1024, 4096]⟩
abbrev S256x4096 : Shape := ⟨2, ![256, 4096]⟩
abbrev S256x32 : Shape := ⟨2, ![256, 32]⟩
abbrev S1024x256 : Shape := ⟨2, ![1024, 256]⟩
abbrev S256x32x128 : Shape := ⟨3, ![256, 32, 128]⟩
abbrev S256x32x1 : Shape := ⟨3, ![256, 32, 1]⟩
abbrev S4x2048x11008 : Shape := ⟨3, ![4, 2048, 11008]⟩

abbrev nBuf : Space → Nat
  | .hbm => 10
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S86x32, .f32⟩
  | .hbm, ⟨3, _⟩ => ⟨S8192x4096, .f32⟩
  | .hbm, ⟨4, _⟩ => ⟨S8192x4096, .bf16⟩
  | .hbm, ⟨5, _⟩ => ⟨S11008x4096, .bf16⟩
  | .hbm, ⟨6, _⟩ => ⟨S86x128x32, .f32⟩
  | .hbm, ⟨7, _⟩ => ⟨S11008x32, .f32⟩
  | .hbm, ⟨8, _⟩ => ⟨S8192x11008, .f32⟩
  | .hbm, ⟨9, _⟩ => ⟨S4x2048x11008, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S256x4096, .bf16⟩
  | .local _ .vmem, ⟨4, _⟩ => ⟨S256x32, .f32⟩
  | .local _ .vmem, ⟨5, _⟩ => ⟨S256x32, .f32⟩
  | .local _ .vmem, ⟨6, _⟩ => ⟨S1024x256, .f32⟩
  | .local _ .vmem, ⟨7, _⟩ => ⟨S1024x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x2048x4096_S8192x4096 : S4x2048x4096.ShapeCasts S8192x4096
  bitsLt_bf16_f32 : FTy.bits .bf16 < FTy.bits .f32
  bcast_S86x32_S86x128x32_0_2 : S86x32.BroadcastsInDim S86x128x32 (![0, 2] : Fin 2 → Fin S86x128x32.rank)
  shapeCasts_S86x128x32_S11008x32 : S86x128x32.ShapeCasts S11008x32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x32_S256x32_0_0 : ∀ a, (![0, 0] : Fin 2 → Nat) a + S256x32.size a ≤ S256x32.size a
  h_S256x32 : 0 < S256x32.numel
  shapeCasts_S256x32_S256x32 : S256x32.ShapeCasts S256x32
  shapeCasts_S256x4096_S256x32x128 : S256x4096.ShapeCasts S256x32x128
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  inb_S1024x256_S1024x256_0_0 : ∀ a, (![0, 0] : Fin 2 → Nat) a + S1024x256.size a ≤ S1024x256.size a
  h_S1024x256 : 0 < S1024x256.numel
  shapeCasts_S8192x11008_S4x2048x11008 : S8192x11008.ShapeCasts S4x2048x11008
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S11008x32.size a
  hwx0_2 : ∀ i : grid0.Coords, EltTy.bits .f32 = 32 ∨ (Rect.block (s := S11008x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x11008.size a
  hwx0_3 : ∀ i : grid0.Coords, EltTy.bits .f32 = 32 ∨ (Rect.block (s := S8192x11008) S1024x256.size (cc0_transform_3 i) (hinb0_3 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S86x32 : Shape := ⟨2, ![86, 32]⟩
abbrev S86x128x32x128 : Shape := ⟨4, ![86, 128, 32, 128]⟩
abbrev S86x1x32x1 : Shape := ⟨4, ![86, 1, 32, 1]⟩
abbrev S4x2048x11008 : Shape := ⟨3, ![4, 2048, 11008]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S86x32, .f32⟩
  | .hbm, ⟨3, _⟩ => ⟨S86x128x32x128, .f32⟩
  | .hbm, ⟨4, _⟩ => ⟨S86x1x32x1, .f32⟩
  | .hbm, ⟨5, _⟩ => ⟨S86x128x32x128, .f32⟩
  | .hbm, ⟨6, _⟩ => ⟨S86x128x32x128, .f32⟩
  | .hbm, ⟨7, _⟩ => ⟨S11008x4096, .f32⟩
  | .hbm, ⟨8, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  shapeCasts_S11008x4096_S86x128x32x128 : S11008x4096.ShapeCasts S86x128x32x128
  bcast_S86x32_S86x1x32x1_0_2 : S86x32.BroadcastsInDim S86x1x32x1 (![0, 2] : Fin 2 → Fin S86x1x32x1.rank)
  bcast_S86x1x32x1_S86x128x32x128_0_1_2_3 : S86x1x32x1.BroadcastsInDim S86x128x32x128 (![0, 1, 2, 3] : Fin 4 → Fin S86x128x32x128.rank)
  shapeCasts_S86x128x32x128_S11008x4096 : S86x128x32x128.ShapeCasts S11008x4096
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Spec.lean ====
/-
  The linear map that both programs compute, as one function of the three argument arrays.

  `x` is a [4, 2048, 4096] array of inputs, `w` a [11008, 4096] array of weights and `s` a [86, 32]
  array of scales, one scale for each 128 × 128 tile of `w`. The dequantized weight at row `o` and
  column `k` is `w[o, k] · s[o / 128, k / 128]`, and the result at `(b, r, o)` is the sum over the
  4096 columns `k` of `x[b, r, k]` times that dequantized weight.

  The same sum is also stated over the flattened arrays the kernel works on: the inputs as 8192 rows
  (row `2048 · b + r`), and the scales already spread over the weight rows, an [11008, 32] array whose
  row `o` is row `o / 128` of `s`. The two statements agree term by term, so no law of the
  extended reals beyond reading the same product at the same index is needed.
-/
import Idealize.ShloMosaic.PureOps.Ideal
import Idealize.ShloMosaic.Lib.ValueIdx

noncomputable section

namespace Cert.Spec

open Idealize.ShloMosaic Idealize.ShloMosaic.ValueIdx

/-- The row of scales a weight row uses: weight rows come in groups of 128. -/
def rowTile (o : Fin 11008) : Fin 86 := ⟨o.val / 128, by have := o.isLt; omega⟩

/-- The column of scales a weight column uses: weight columns come in groups of 128. -/
def colTile (k : Fin 4096) : Fin 32 := ⟨k.val / 128, by have := k.isLt; omega⟩

/-- The dequantized weight at row `o`, column `k`: the stored weight times its tile's scale. -/
def deq (w : (⟨2, ![11008, 4096]⟩ : Shape).Idx → EReal) (s : (⟨2, ![86, 32]⟩ : Shape).Idx → EReal)
    (o : Fin 11008) (k : Fin 4096) : EReal :=
  w (ix2 o k) * s (ix2 (rowTile o) (colTile k))

/-- The result: at `(b, r, o)`, the sum over `k` of `x[b, r, k]` times the dequantized weight `[o, k]`. -/
def linear (x : (⟨3, ![4, 2048, 4096]⟩ : Shape).Idx → EReal) (w : (⟨2, ![11008, 4096]⟩ : Shape).Idx → EReal)
    (s : (⟨2, ![86, 32]⟩ : Shape).Idx → EReal) : (⟨3, ![4, 2048, 11008]⟩ : Shape).Idx → EReal :=
  fun i => ∑ k : Fin 4096, x (ix3 (i 0) (i 1) k) * deq w s (i 2) k

/-- The result read at coordinates `(b, r, o)`. -/
theorem linear_apply (x : (⟨3, ![4, 2048, 4096]⟩ : Shape).Idx → EReal) (w : (⟨2, ![11008, 4096]⟩ : Shape).Idx → EReal)
    (s : (⟨2, ![86, 32]⟩ : Shape).Idx → EReal) (b : Fin 4) (r : Fin 2048) (o : Fin 11008) :
    linear x w s (ix3 b r o) = ∑ k : Fin 4096, x (ix3 b r k) * deq w s o k := rfl

/-- The same sum over flattened inputs `X` (8192 rows) and scales `Sc` already spread over the weight rows:
    at `(p, o)`, the sum over `k` of `X[p, k] · (w[o, k] · Sc[o, k / 128])`. -/
def flat (X : (⟨2, ![8192, 4096]⟩ : Shape).Idx → EReal) (w : (⟨2, ![11008, 4096]⟩ : Shape).Idx → EReal)
    (Sc : (⟨2, ![11008, 32]⟩ : Shape).Idx → EReal) : (⟨2, ![8192, 11008]⟩ : Shape).Idx → EReal :=
  fun i => ∑ k : Fin 4096, X (ix2 (i 0) k) * (w (ix2 (i 1) k) * Sc (ix2 (i 1) (colTile k)))

/-- The flattened sum read at coordinates `(p, o)`. -/
theorem flat_apply (X : (⟨2, ![8192, 4096]⟩ : Shape).Idx → EReal) (w : (⟨2, ![11008, 4096]⟩ : Shape).Idx → EReal)
    (Sc : (⟨2, ![11008, 32]⟩ : Shape).Idx → EReal) (p : Fin 8192) (o : Fin 11008) :
    flat X w Sc (ix2 p o) = ∑ k : Fin 4096, X (ix2 p k) * (w (ix2 o k) * Sc (ix2 o (colTile k))) := rfl

/-- The flattened row of input `(b, r)`. -/
def flatRow (b : Fin 4) (r : Fin 2048) : Fin 8192 := ⟨b.val * 2048 + r.val, by have := b.isLt; have := r.isLt; omega⟩

/-- When `X` is `x` with its two leading axes flattened and `Sc` is `s` with each row repeated over its 128
    weight rows, the flattened sum at `(2048 · b + r, o)` is the result at `(b, r, o)`: the two sums have the
    same terms. -/
theorem flat_eq_linear (x : (⟨3, ![4, 2048, 4096]⟩ : Shape).Idx → EReal) (w : (⟨2, ![11008, 4096]⟩ : Shape).Idx → EReal)
    (s : (⟨2, ![86, 32]⟩ : Shape).Idx → EReal) (X : (⟨2, ![8192, 4096]⟩ : Shape).Idx → EReal)
    (Sc : (⟨2, ![11008, 32]⟩ : Shape).Idx → EReal)
    (hX : ∀ (b : Fin 4) (r : Fin 2048) (k : Fin 4096), X (ix2 (flatRow b r) k) = x (ix3 b r k))
    (hS : ∀ (o : Fin 11008) (c : Fin 32), Sc (ix2 o c) = s (ix2 (rowTile o) c))
    (b : Fin 4) (r : Fin 2048) (o : Fin 11008) :
    flat X w Sc (ix2 (flatRow b r) o) = linear x w s (ix3 b r o) := by
  rw [flat_apply, linear_apply]
  refine Finset.sum_congr rfl fun k _ => ?_
  unfold deq
  rw [hX, hS]

end Cert.Spec

end
-- ==== Proof.RefSide.lean ====
/-
  The reference computes the linear map of the specification.

  The reference splits the weights into 86 × 128 row groups and 32 × 128 column groups, multiplies each
  128 × 128 tile by its scale, puts the rows and columns back together, and contracts the last axis of the
  inputs with the columns of the result. Read at an index, the dequantized array at `[o, k]` is
  `w[o, k] · s[o / 128, k / 128]`: splitting position `4096 · o + k` into the four coordinates and joining the
  first pair and the second pair again gives back `(o, k)`, and the first and third coordinates are `o / 128` and
  `k / 128`. The contraction is then the specification's sum, term by term.
-/
import proofs.«128670_j12489764897587_2_alg».proof.Proof.Gen.ReferenceIdeal.Read
import proofs.«128670_j12489764897587_2_alg».proof.Proof.Spec

noncomputable section

namespace Cert.ReferenceIdeal.RefValue

open Cert.ReferenceIdeal Cert.ReferenceIdeal.Read Idealize.ShloMosaic Idealize.ShloMosaic.ValueIdx Cert.Spec

/-- Splitting `(o, k)` into tile coordinates and joining them again is the identity. -/
theorem split_join (o : Fin 11008) (k : Fin 4096) : idx_main_v0 (idx_main_v4 (ix2 o k)) = ix2 o k := by
  have ho := o.isLt
  have hk := k.isLt
  funext a
  apply Fin.ext
  match a with
  | ⟨0, _⟩ =>
    show ((((o.val * 4096 + k.val) / 524288 * 128 + (o.val * 4096 + k.val) / 4096 % 128) * 32 + (o.val * 4096 + k.val) / 128 % 32) * 128 + (o.val * 4096 + k.val) % 128) / 4096 = o.val
    omega
  | ⟨1, _⟩ =>
    show ((((o.val * 4096 + k.val) / 524288 * 128 + (o.val * 4096 + k.val) / 4096 % 128) * 32 + (o.val * 4096 + k.val) / 128 % 32) * 128 + (o.val * 4096 + k.val) % 128) % 4096 = k.val
    omega

/-- The scale that meets `(o, k)` is the one of tile `(o / 128, k / 128)`. -/
theorem scale_at (o : Fin 11008) (k : Fin 4096) :
    idx_main_v1 (idx_main_v2 (idx_main_v4 (ix2 o k))) = ix2 (rowTile o) (colTile k) := by
  have ho := o.isLt
  have hk := k.isLt
  funext a
  apply Fin.ext
  match a with
  | ⟨0, _⟩ =>
    show (o.val * 4096 + k.val) / 524288 = o.val / 128
    omega
  | ⟨1, _⟩ =>
    show (o.val * 4096 + k.val) / 128 % 32 = k.val / 128
    omega

/-- The reference's dequantized array at `[o, k]` is the stored weight times its tile's scale. -/
theorem deq_at (x1 : (⟨S11008x4096, .f32⟩ : BufTy).Contents (Elt Ideal)) (x2 : (⟨S86x32, .f32⟩ : BufTy).Contents (Elt Ideal))
    (o : Fin 11008) (k : Fin 4096) :
    val_main_v4 (F := Ideal) x1 x2 (ix2 o k) = deq x1 x2 o k := by
  rw [val_main_v4_apply, val_main_v3_apply, val_main_v0_apply, val_main_v2_apply, val_main_v1_apply, split_join, scale_at]
  rfl

/-- The reference's result is the specification's linear map of the three arguments. -/
theorem result_eq (x0 : (⟨S4x2048x4096, .f32⟩ : BufTy).Contents (Elt Ideal)) (x1 : (⟨S11008x4096, .f32⟩ : BufTy).Contents (Elt Ideal))
    (x2 : (⟨S86x32, .f32⟩ : BufTy).Contents (Elt Ideal)) :
    val_main_v5 (F := Ideal) x0 x1 x2 = linear x0 x1 x2 := by
  funext i
  obtain ⟨b, r, o, rfl⟩ : ∃ (b : Fin 4) (r : Fin 2048) (o : Fin 11008), i = ix3 b r o := ⟨i 0, i 1, i 2, eq_ix3 i⟩
  rw [val_main_v5_apply, linear_apply]
  refine Finset.sum_congr rfl fun k _ => ?_
  have el : lidx_main_v5 (ix3 b r o) k = ix3 b r k := funext fun a => Fin.ext (by
    match a with
    | ⟨0, _⟩ => rfl
    | ⟨1, _⟩ => rfl
    | ⟨2, _⟩ => rfl)
  have er : ridx_main_v5 (ix3 b r o) k = ix2 o k := funext fun a => Fin.ext (by
    match a with
    | ⟨0, _⟩ => rfl
    | ⟨1, _⟩ => rfl)
  rw [el, er, deq_at]

end Cert.ReferenceIdeal.RefValue

end
-- ==== Proof.Body.lean ====
/-
  The kernel body at one output position.

  At a grid point the body holds a block `x0` of 1024 input rows, a block `x1` of 256 weight rows and the
  matching 256 rows `x2` of spread scales (32 per row, one for each group of 128 columns). It regroups each
  weight row as 32 groups of 128 columns, multiplies group `c` of row `q` by `x2[q, c]`, puts the row back
  together, and contracts the columns of `x0` with the columns of the result into a zero accumulator.

  Read at output position `(r, q)` this is the sum over the 4096 columns `k` of
  `x0[r, k] · (x1[q, k] · x2[q, k / 128])`: column `k` of a row sits in group `k / 128` at place `k % 128`, the
  scale does not depend on the place, and a contraction into a zero accumulator is the plain sum of products.
-/
import proofs.«128670_j12489764897587_2_alg».proof.Proof.Gen.KernelIdeal.Skeleton
import proofs.«128670_j12489764897587_2_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.Spec

/-- The place of column `k` inside its group of 128. -/
def lane (k : Fin 4096) : Fin 128 := ⟨k.val % 128, Nat.mod_lt _ (by decide)⟩

/-- The dequantized weight block: the weight rows regrouped, each group times its scale, regrouped back. -/
def wq (x1 : Vec Ideal S256x4096 .bf16) (x2 : Vec Ideal S256x32 .f32) : FVec Ideal S256x4096 .bf16 :=
  shapeCast S256x4096
    (mulf (shapeCast S256x32x128 (shapeCast S256x4096 x1 shapeCasts_S256x4096_S256x4096) shapeCasts_S256x4096_S256x32x128)
      (broadcastTo S256x32x128
        (shapeCast S256x32x1 (truncf .bf16 (shapeCast S256x32 x2 shapeCasts_S256x32_S256x32) bitsLt_bf16_f32) shapeCasts_S256x32_S256x32x1)
        broadcasts_S256x32x1_S256x32x128))
    shapeCasts_S256x32x128_S256x4096

/-- The body's stored value is the contraction of the input block with the dequantized weight block. -/
theorem pay_eq (x0 : Vec Ideal S1024x4096 .bf16) (x1 : Vec Ideal S256x4096 .bf16) (x2 : Vec Ideal S256x32 .f32) :
    k0_pay1 (F := Ideal) x0 x1 x2
      = matmul dot_S1024x4096_S256x4096_S1024x256_1_1_0_0_n_n none
          (shapeCast S1024x4096 x0 shapeCasts_S1024x4096_S1024x4096 : FVec Ideal S1024x4096 .bf16)
          (wq x1 x2) (constant (F := Ideal) S1024x256 .f32 0x00000000#32) := rfl

/-- The regrouped weight row `q` at group `c`, place `l`, is the weight at column `128 · c + l`. -/
theorem regroup_at (x1 : Vec Ideal S256x4096 .bf16) (q : Fin 256) (k : Fin 4096) :
    (shapeCast S256x32x128 (shapeCast S256x4096 x1 shapeCasts_S256x4096_S256x4096) shapeCasts_S256x4096_S256x32x128 : FVec Ideal S256x32x128 .bf16)
      (ix3 q (colTile k) (lane k)) = x1 (ix2 q k) := by
  have hk := k.isLt
  rw [shapeCast_self]
  refine shapeCast_apply x1 shapeCasts_S256x4096_S256x32x128 _ (ix2 q k) ?_
  rewrite [Shape.rowMajor_val_two, Shape.rowMajor_val_three]
  show q.val * 4096 + k.val = (q.val * 32 + k.val / 128) * 128 + k.val % 128
  omega

/-- The spread scale at row `q`, group `c`, any place, is `x2[q, c]`. -/
theorem scale_at (x2 : Vec Ideal S256x32 .f32) (q : Fin 256) (c : Fin 32) (l : Fin 128) :
    (broadcastTo S256x32x128
        (shapeCast S256x32x1 (truncf .bf16 (shapeCast S256x32 x2 shapeCasts_S256x32_S256x32) bitsLt_bf16_f32) shapeCasts_S256x32_S256x32x1)
        broadcasts_S256x32x1_S256x32x128 : FVec Ideal S256x32x128 .bf16) (ix3 q c l) = x2 (ix2 q c) := by
  refine (broadcastTo_apply _ broadcasts_S256x32x1_S256x32x128 (ix3 q c l) (ix3 q c (0 : Fin 1)) ?_).trans ?_
  · intro a
    match a with
    | ⟨0, _⟩ => show q.val = if (256 : Nat) = 1 then 0 else q.val; rw [if_neg (by decide)]
    | ⟨1, _⟩ => show c.val = if (32 : Nat) = 1 then 0 else c.val; rw [if_neg (by decide)]
    | ⟨2, _⟩ => show 0 = if (1 : Nat) = 1 then 0 else l.val; rw [if_pos rfl]
  · refine (shapeCast_apply _ shapeCasts_S256x32_S256x32x1 (ix3 q c (0 : Fin 1)) (ix2 q c) ?_).trans ?_
    · rewrite [Shape.rowMajor_val_two, Shape.rowMajor_val_three]
      show q.val * 32 + c.val = (q.val * 32 + c.val) * 1 + 0
      omega
    · rw [shapeCast_self]
      rfl

/-- The dequantized weight block at `[q, k]`: the weight times the scale of its group of columns. -/
theorem wq_at (x1 : Vec Ideal S256x4096 .bf16) (x2 : Vec Ideal S256x32 .f32) (q : Fin 256) (k : Fin 4096) :
    wq x1 x2 (ix2 q k) = x1 (ix2 q k) * x2 (ix2 q (colTile k)) := by
  have hk := k.isLt
  unfold wq
  refine (shapeCast_apply _ shapeCasts_S256x32x128_S256x4096 (ix2 q k) (ix3 q (colTile k) (lane k)) ?_).trans ?_
  · rewrite [Shape.rowMajor_val_two, Shape.rowMajor_val_three]
    show (q.val * 32 + k.val / 128) * 128 + k.val % 128 = q.val * 4096 + k.val
    omega
  · rw [mulf_apply, regroup_at, scale_at]

/-! ## The contraction at an output position

The contraction keeps axis 0 of each operand and sums over axis 1 of both: at output `(r, q)` and position `k`
the left operand is read at `(r, k)` and the right operand at `(q, k)`. -/

theorem lhs_row (j : S1024x256.Idx) (p : dot_S1024x4096_S256x4096_S1024x256_1_1_0_0_n_n.contr.Idx) :
    (dot_S1024x4096_S256x4096_S1024x256_1_1_0_0_n_n.lhsIdx j p 0).val = (j 0).val := by
  unfold DotDims.lhsIdx
  rw [dif_neg (show ¬(0 : Fin S1024x4096.rank) ∈ dot_S1024x4096_S256x4096_S1024x256_1_1_0_0_n_n.lhsBatch by decide),
    dif_pos (show (0 : Fin S1024x4096.rank) ∈ dot_S1024x4096_S256x4096_S1024x256_1_1_0_0_n_n.lhsNonContracting by decide)]
  rfl

theorem lhs_col (j : S1024x256.Idx) (p : dot_S1024x4096_S256x4096_S1024x256_1_1_0_0_n_n.contr.Idx) :
    (dot_S1024x4096_S256x4096_S1024x256_1_1_0_0_n_n.lhsIdx j p 1).val = (p ⟨0, by decide⟩).val :=
  dot_S1024x4096_S256x4096_S1024x256_1_1_0_0_n_n.lhsIdx_val_of_single rfl j p

theorem rhs_row (j : S1024x256.Idx) (p : dot_S1024x4096_S256x4096_S1024x256_1_1_0_0_n_n.contr.Idx) :
    (dot_S1024x4096_S256x4096_S1024x256_1_1_0_0_n_n.rhsIdx j p 0).val = (j 1).val := by
  unfold DotDims.rhsIdx
  rw [dif_neg (show ¬(0 : Fin S256x4096.rank) ∈ dot_S1024x4096_S256x4096_S1024x256_1_1_0_0_n_n.rhsBatch by decide),
    dif_pos (show (0 : Fin S256x4096.rank) ∈ dot_S1024x4096_S256x4096_S1024x256_1_1_0_0_n_n.rhsNonContracting by decide)]
  rfl

theorem rhs_col (j : S1024x256.Idx) (p : dot_S1024x4096_S256x4096_S1024x256_1_1_0_0_n_n.contr.Idx) :
    (dot_S1024x4096_S256x4096_S1024x256_1_1_0_0_n_n.rhsIdx j p 1).val = (p ⟨0, by decide⟩).val :=
  dot_S1024x4096_S256x4096_S1024x256_1_1_0_0_n_n.rhsIdx_val_of_single rfl j p

/-- THE BODY AT `(r, q)`: the sum over the columns of the input row times the dequantized weight row. -/
theorem pay_at (x0 : Vec Ideal S1024x4096 .bf16) (x1 : Vec Ideal S256x4096 .bf16) (x2 : Vec Ideal S256x32 .f32)
    (r : Fin 1024) (q : Fin 256) :
    k0_pay1 (F := Ideal) x0 x1 x2 (ix2 r q)
      = ∑ k : Fin 4096, x0 (ix2 r k) * (x1 (ix2 q k) * x2 (ix2 q (colTile k))) := by
  rw [pay_eq]
  show FloatOps.matmul dot_S1024x4096_S256x4096_S1024x256_1_1_0_0_n_n none _ _ (constant (F := Ideal) S1024x256 .f32 0x00000000#32) (ix2 r q) = _
  rw [Ideal.matmul_constant_zero_apply,
    ← Equiv.sum_comp (contrEquiv1 dot_S1024x4096_S256x4096_S1024x256_1_1_0_0_n_n 4096 rfl rfl).symm]
  refine Finset.sum_congr rfl fun k _ => ?_
  have hk := contrEquiv1_symm_val dot_S1024x4096_S256x4096_S1024x256_1_1_0_0_n_n 4096 rfl rfl k
  have el : dot_S1024x4096_S256x4096_S1024x256_1_1_0_0_n_n.lhsIdx (ix2 r q)
      ((contrEquiv1 dot_S1024x4096_S256x4096_S1024x256_1_1_0_0_n_n 4096 rfl rfl).symm k) = ix2 r k := funext fun a => Fin.ext (by
    match a with
    | ⟨0, _⟩ => exact lhs_row _ _
    | ⟨1, _⟩ => exact (lhs_col _ _).trans hk)
  have er : dot_S1024x4096_S256x4096_S1024x256_1_1_0_0_n_n.rhsIdx (ix2 r q)
      ((contrEquiv1 dot_S1024x4096_S256x4096_S1024x256_1_1_0_0_n_n 4096 rfl rfl).symm k) = ix2 q k := funext fun a => Fin.ext (by
    match a with
    | ⟨0, _⟩ => exact rhs_row _ _
    | ⟨1, _⟩ => exact (rhs_col _ _).trans hk)
  rw [el, er, shapeCast_self, wq_at]

end Cert.KernelIdeal.Body

end
-- ==== Proof.Blocks.lean ====
/-
  From the blocks the grid points write back to the whole output array.

  The grid is 8 × 43. Point `t` has coordinates `(t / 43, t % 43)`; it reads input rows
  `1024 · (t / 43) …`, weight and scale rows `256 · (t % 43) …`, all 4096 (or 32) columns, and writes the
  1024 × 256 block of the [8192, 11008] output at block position `(t / 43, t % 43)`.

  So what point `t` writes back is the block at `t` of ONE function of the three arrays the region reads —
  the flattened sum of the specification — and since the 8 × 43 blocks tile the output, the output array
  after the region is that function.
-/
import proofs.«128670_j12489764897587_2_alg».proof.Proof.Gen.KernelIdeal.Frame
import proofs.«128670_j12489764897587_2_alg».proof.Proof.Body
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.Spec

variable (m : (ℓ : Loc nD τ sig) → Buf (Elt Ideal) ℓ)

theorem hz : (![0, 0] : Fin 2 → Nat) = fun _ => 0 := funext fun a => by fin_cases a <;> rfl

/-- The block positions of the four windows at point `t`, decided over the 344 points. -/
theorem idx_facts : ∀ t : Fin cfg0.N,
    win0_3.index t (0 : Fin 2) = t.val / 43 ∧ win0_3.index t (1 : Fin 2) = t.val % 43
    ∧ win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = t.val % 43 ∧ win0_2.index t (1 : Fin 2) = 0 :=
  (by decide +kernel : ∀ t : Fin grid0.N, _)

/-- The flattened sum of the three arrays the region reads. -/
def G (c : Dev nD) : S8192x11008.Idx → EReal :=
  flat (V m c main_v1) (V m c main_v2) (V m c main_v4)

/-- The input block at point `t` is rows `1024 · (t / 43) …` of the flattened inputs. -/
theorem xblk_at (c : Dev nD) (t : Fin cfg0.N) (r : Fin 1024) (k : Fin 4096) (p : Fin 8192)
    (hp : p.val = t.val / 43 * 1024 + r.val) :
    (iblk m c 0 t : Vec Ideal S1024x4096 .bf16) (ix2 r k) = (V m c main_v1 : S8192x4096.Idx → EReal) (ix2 p k) := by
  obtain ⟨-, -, e0, e1, -⟩ := idx_facts t
  unfold iblk
  rw [View.read_apply]
  show V m c main_v1 _ = V m c main_v1 _
  congr 1
  funext a
  apply Fin.ext
  match a with
  | ⟨0, _⟩ => show win0_0.index t (0 : Fin 2) * 1024 + 1 * r.val = p.val; rw [e0, hp]; omega
  | ⟨1, _⟩ => show win0_0.index t (1 : Fin 2) * 4096 + 1 * k.val = k.val; rw [e1]; omega

/-- The weight block at point `t` is rows `256 · (t % 43) …` of the weights. -/
theorem wblk_at (c : Dev nD) (t : Fin cfg0.N) (q : Fin 256) (k : Fin 4096) (o : Fin 11008)
    (ho : o.val = t.val % 43 * 256 + q.val) :
    (iblk m c 1 t : Vec Ideal S256x4096 .bf16) (ix2 q k) = (V m c main_v2 : S11008x4096.Idx → EReal) (ix2 o k) := by
  obtain ⟨-, -, -, -, e0, e1, -⟩ := idx_facts t
  unfold iblk
  rw [View.read_apply]
  show V m c main_v2 _ = V m c main_v2 _
  congr 1
  funext a
  apply Fin.ext
  match a with
  | ⟨0, _⟩ => show win0_1.index t (0 : Fin 2) * 256 + 1 * q.val = o.val; rw [e0, ho]; omega
  | ⟨1, _⟩ => show win0_1.index t (1 : Fin 2) * 4096 + 1 * k.val = k.val; rw [e1]; omega

/-- The scale block at point `t` is rows `256 · (t % 43) …` of the spread scales. -/
theorem sblk_at (c : Dev nD) (t : Fin cfg0.N) (q : Fin 256) (g : Fin 32) (o : Fin 11008)
    (ho : o.val = t.val % 43 * 256 + q.val) :
    (iblk m c 2 t : Vec Ideal S256x32 .f32) (ix2 q g) = (V m c main_v4 : S11008x32.Idx → EReal) (ix2 o g) := by
  obtain ⟨-, -, -, -, -, -, e0, e1⟩ := idx_facts t
  unfold iblk
  rw [View.read_apply]
  show V m c main_v4 _ = V m c main_v4 _
  congr 1
  funext a
  apply Fin.ext
  match a with
  | ⟨0, _⟩ => show win0_2.index t (0 : Fin 2) * 256 + 1 * q.val = o.val; rw [e0, ho]; omega
  | ⟨1, _⟩ => show win0_2.index t (1 : Fin 2) * 32 + 1 * g.val = g.val; rw [e1]; omega

/-- WHAT POINT `t` WRITES BACK is the block at `t` of the flattened sum: the body's one store covers its whole
    buffer, its value at `(r, q)` is the sum over the columns, and each factor is the region's array read at row
    `1024 · (t / 43) + r` or `256 · (t % 43) + q`. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold out0_3
  rw [View.canon_unit_zero hz]
  simp only [View.ld_unit_zero (S := S1024x4096) hz, View.ld_unit_zero (S := S256x4096) hz, View.ld_unit_zero (S := S256x32) hz]
  obtain ⟨e0, e1, -⟩ := idx_facts t
  have ht : t.val < 344 := Nat.lt_of_lt_of_eq t.isLt N_0
  funext j
  obtain ⟨r, q, rfl⟩ : ∃ (r : Fin 1024) (q : Fin 256), j = ix2 r q := ⟨j 0, j 1, eq_ix2 j⟩
  have hr := r.isLt
  have hq := q.isLt
  obtain ⟨p, hp⟩ : ∃ p : Fin 8192, p.val = t.val / 43 * 1024 + r.val := ⟨⟨t.val / 43 * 1024 + r.val, by omega⟩, rfl⟩
  obtain ⟨o, ho⟩ : ∃ o : Fin 11008, o.val = t.val % 43 * 256 + q.val := ⟨⟨t.val % 43 * 256 + q.val, by omega⟩, rfl⟩
  have hemb : ((cfg0.win 3).blk t).view.emb (ix2 r q) = ix2 p o := by
    funext a
    apply Fin.ext
    match a with
    | ⟨0, _⟩ => show win0_3.index t (0 : Fin 2) * 1024 + 1 * r.val = p.val; rw [e0, hp]; omega
    | ⟨1, _⟩ => show win0_3.index t (1 : Fin 2) * 256 + 1 * q.val = o.val; rw [e1, ho]; omega
  show k0_pay1 (F := Ideal) (iblk m c 0 t) (iblk m c 1 t) (iblk m c 2 t) (ix2 r q) = G m c (((cfg0.win 3).blk t).view.emb (ix2 r q))
  rw [hemb]
  refine (Body.pay_at (iblk m c 0 t) (iblk m c 1 t) (iblk m c 2 t) r q).trans ?_
  unfold G
  rw [flat_apply]
  refine Finset.sum_congr rfl fun k _ => ?_
  rw [xblk_at m c t r k p hp, wblk_at m c t q k o ho, sblk_at m c t q (colTile k) o ho]

/-- An index of the output is in point `t`'s block iff each coordinate is in the block's range on its axis. -/
theorem mem_blk (t : Fin cfg0.N) (i : S8192x11008.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v5).slice (win0_3.rect t)).set ↔ _
  rw [View.set_slice_whole, Rect.mem_set_unit]
  exact Iff.rfl

/-- Every index `(p, o)` of the output is in the block of the point with coordinates `(p / 1024, o / 256)`. -/
theorem cover (i : S8192x11008.Idx) : ∃ t : Fin cfg0.N, (cfg0.win 3).flush t = true ∧ i ∈ ((cfg0.win 3).blk t).view.set := by
  have hi0 : (i 0).val < 8192 := (i 0).isLt
  have hi1 : (i 1).val < 11008 := (i 1).isLt
  obtain ⟨t, ht⟩ : ∃ t : Fin cfg0.N, t.val = (i 0).val / 1024 * 43 + (i 1).val / 256 :=
    ⟨⟨(i 0).val / 1024 * 43 + (i 1).val / 256, Nat.lt_of_lt_of_eq (by omega : (i 0).val / 1024 * 43 + (i 1).val / 256 < 344) N_0.symm⟩, rfl⟩
  obtain ⟨e0, e1, -⟩ := idx_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 256 ≤ (i 1).val ∧ (i 1).val < win0_3.index t (1 : Fin 2) * 256 + 256
    rw [e1, ht]; omega

/-- THE OUTPUT ARRAY after the region is the flattened sum of the arrays the region reads. -/
theorem final (c : Dev nD) : (dats m 0 c).arrAt 3 cfg0.N = G m c :=
  (dats m 0 c).arrAt_eq_of_cover 3 (G m c) (fun t _ => flushed_eq m c t) cover

end Cert.KernelIdeal.Blocks

end
-- ==== Proof.Whole.lean ====
/-
  The kernel program's result as a function of its three arguments.

  Before the region the program flattens the inputs to 8192 rows (row `2048 · b + r`), changes the format of
  inputs and weights (the identity on extended reals), and spreads the scales over the weight rows: row `o` of
  the [11008, 32] array is row `o / 128` of the scales. After the region it splits the 8192 output rows back
  into `(b, r)`.

  The region leaves the flattened sum of those three arrays in the output (the blocks tile it), so the result
  at `(b, r, o)` is the flattened sum at `(2048 · b + r, o)`, which is the specification's sum at `(b, r, o)`
  term by term.
-/
import proofs.«128670_j12489764897587_2_alg».proof.Proof.Blocks
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Whole

open Cert.KernelIdeal Cert.KernelIdeal.Gen Idealize.ShloMosaic.ValueIdx Cert.Spec

variable (m : (ℓ : Loc nD τ sig) → Buf (Elt Ideal) ℓ) (ρ : Dev nD → PrngReg)

/-- The place of weight row `o` inside its group of 128 rows. -/
def rowLane (o : Fin 11008) : Fin 128 := ⟨o.val % 128, Nat.mod_lt _ (by decide)⟩

/-- The region's first array at row `2048 · b + r` is the input row `(b, r)`. -/
theorem x_rows (c : Dev nD) (b : Fin 4) (r : Fin 2048) (k : Fin 4096) :
    (V m c main_v1 : S8192x4096.Idx → EReal) (ix2 (flatRow b r) k)
      = (m ((c : Thread nD τ).loc main_arg0) : S4x2048x4096.Idx → EReal) (ix3 b r k) := by
  have e : (V m c main_v1 : S8192x4096.Idx → EReal)
      = truncf .bf16 (shapeCast S8192x4096 (m ((c : Thread nD τ).loc main_arg0)) shapeCasts_S4x2048x4096_S8192x4096 : FVec Ideal S8192x4096 .f32) bitsLt_bf16_f32 := by
    show StableHlo.after hostOps0 (fun b => m (c, b)) (Proc.devRef .tc main_v1) = _
    after_results
    rfl
  rw [e]
  show shapeCast S8192x4096 (m ((c : Thread nD τ).loc main_arg0)) shapeCasts_S4x2048x4096_S8192x4096 (ix2 (flatRow b r) k) = _
  refine shapeCast_apply _ shapeCasts_S4x2048x4096_S8192x4096 _ (ix3 b r k) ?_
  rewrite [Shape.rowMajor_val_three, Shape.rowMajor_val_two]
  rfl

/-- The region's second array is the weights. -/
theorem w_same (c : Dev nD) :
    (V m c main_v2 : S11008x4096.Idx → EReal) = m ((c : Thread nD τ).loc main_arg1) := by
  show StableHlo.after hostOps0 (fun b => m (c, b)) (Proc.devRef .tc main_v2) = _
  after_results
  rfl

/-- The region's third array at row `o` is row `o / 128` of the scales. -/
theorem s_rows (c : Dev nD) (o : Fin 11008) (g : Fin 32) :
    (V m c main_v4 : S11008x32.Idx → EReal) (ix2 o g)
      = (m ((c : Thread nD τ).loc main_arg2) : S86x32.Idx → EReal) (ix2 (rowTile o) g) := by
  have ho := o.isLt
  have e : (V m c main_v4 : S11008x32.Idx → EReal)
      = shapeCast S11008x32 (broadcastInDim S86x128x32 ![0, 2] bcast_S86x32_S86x128x32_0_2 (m ((c : Thread nD τ).loc main_arg2)) : FVec Ideal S86x128x32 .f32)
          shapeCasts_S86x128x32_S11008x32 := by
    show StableHlo.after hostOps0 (fun b => m (c, b)) (Proc.devRef .tc main_v4) = _
    after_results
    rfl
  rw [e]
  refine (shapeCast_apply _ shapeCasts_S86x128x32_S11008x32 (ix2 o g) (ix3 (rowTile o) (rowLane o) g) ?_).trans ?_
  · rewrite [Shape.rowMajor_val_three, Shape.rowMajor_val_two]
    show (o.val / 128 * 128 + o.val % 128) * 32 + g.val = o.val * 32 + g.val
    omega
  · refine broadcastInDim_apply _ bcast_S86x32_S86x128x32_0_2 _ (ix3 (rowTile o) (rowLane o) g) (ix2 (rowTile o) g) ?_
    intro a
    match a with
    | ⟨0, _⟩ => show (rowTile o).val = if (86 : Nat) = 1 then 0 else (rowTile o).val; rw [if_neg (by decide)]
    | ⟨1, _⟩ => show g.val = if (32 : Nat) = 1 then 0 else g.val; rw [if_neg (by decide)]

/-- The program's result is the region's output array with its rows split back into `(b, r)`. -/
theorem tail_eq (c : Dev nD) :
    Pipeline.afterTail₀ cfgs (dats m) 0 (V0 m) [hostOps1] c main_v6
      = shapeCast S4x2048x11008 (Blocks.G m c) shapeCasts_S8192x11008_S4x2048x11008 := by
  have e : Pipeline.withArrays spec0 c (V0 m c) (fun w => (dats m 0 c).arrAt w cfg0.N) (Proc.devRef .tc main_v5) = Blocks.G m c :=
    (Pipeline.withArrays_arr spec0 launch0.win.arr_inj c _ _ 3).trans (Blocks.final m c)
  have h : Pipeline.afterTail₀ cfgs (dats m) 0 (V0 m) [hostOps1] c main_v6
      = shapeCast S4x2048x11008 (Pipeline.withArrays spec0 c (V0 m c) (fun w => (dats m 0 c).arrAt w cfg0.N) (Proc.devRef .tc main_v5))
          shapeCasts_S8192x11008_S4x2048x11008 := by
    unfold Pipeline.afterTail₀
    show StableHlo.after hostOps1 _ (Proc.devRef .tc main_v6) = _
    after_results
    rfl
  rw [h, e]

/-- THE KERNEL PROGRAM'S RESULT is the specification's linear map of its three arguments. -/
theorem result_eq (c : Dev nD) :
    Pipeline.afterTail₀ cfgs (dats m) 0 (V0 m) [hostOps1] c main_v6
      = linear (m ((c : Thread nD τ).loc main_arg0)) (m ((c : Thread nD τ).loc main_arg1)) (m ((c : Thread nD τ).loc main_arg2)) := by
  rw [tail_eq]
  funext i
  obtain ⟨b, r, o, rfl⟩ : ∃ (b : Fin 4) (r : Fin 2048) (o : Fin 11008), i = ix3 b r o := ⟨i 0, i 1, i 2, eq_ix3 i⟩
  refine (shapeCast_apply _ shapeCasts_S8192x11008_S4x2048x11008 (ix3 b r o) (ix2 (flatRow b r) o) ?_).trans ?_
  · rewrite [Shape.rowMajor_val_three, Shape.rowMajor_val_two]
    rfl
  · unfold Blocks.G
    rw [w_same]
    exact flat_eq_linear _ _ _ _ _ (x_rows m c) (s_rows m c) b r o

/-- The run, read: the result at the linear map of the arguments, the arguments unchanged. -/
theorem run : θ_run defs (onTc (τ := τ) (main (F := Ideal))) ⟨m, fun _ => 0, ρ⟩ fun r => ∀ c : Dev nD,
      r.2.mem ((c.tc : Thread nD τ).loc main_v6)
        = linear (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v6 (Pipeline.mem_restRefs_of main_v6 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Whole

end
-- ==== Proof.lean ====
/-
  The kernel and its reference compute the same block-scaled linear map.

  Both programs take inputs `x` [4, 2048, 4096], weights `w` [11008, 4096] and one scale per 128 × 128 tile of
  the weights, `s` [86, 32], and return at `(b, r, o)` the sum over the 4096 columns `k` of
  `x[b, r, k] · (w[o, k] · s[o / 128, k / 128])` (the specification's `linear`).

  The reference scales the weights tile by tile on the whole array and contracts once. The kernel flattens the
  inputs to 8192 rows, spreads the scales over the weight rows, and on an 8 × 43 grid contracts a block of 1024
  input rows with a block of 256 scaled weight rows; its 1024 × 256 output blocks tile the [8192, 11008] result,
  whose rows are then split back. On the extended reals a change of float format is the identity and a
  contraction into a zero accumulator is the plain sum of products, so both results are the same sum with the
  same terms in the same order of factors: no algebraic law is used and the finiteness of the inputs is never
  needed.

  The three frames are the generated ones (the reference's is its run with the result dropped); no operation
  was rewritten when the kernel was idealized, so there is nothing to preserve.
-/
import proofs.«128670_j12489764897587_2_alg».proof.Defs
import proofs.«128670_j12489764897587_2_alg».proof.Proof.Gen.Kernel
import proofs.«128670_j12489764897587_2_alg».proof.Proof.Gen.Kernel.Skeleton
import proofs.«128670_j12489764897587_2_alg».proof.Proof.Gen.Kernel.Launch
import proofs.«128670_j12489764897587_2_alg».proof.Proof.Gen.Kernel.Points
import proofs.«128670_j12489764897587_2_alg».proof.Proof.Gen.Kernel.Frame
import proofs.«128670_j12489764897587_2_alg».proof.Proof.Gen.KernelIdeal
import proofs.«128670_j12489764897587_2_alg».proof.Proof.Gen.KernelIdeal.Skeleton
import proofs.«128670_j12489764897587_2_alg».proof.Proof.Gen.KernelIdeal.Launch
import proofs.«128670_j12489764897587_2_alg».proof.Proof.Gen.KernelIdeal.Points
import proofs.«128670_j12489764897587_2_alg».proof.Proof.Gen.KernelIdeal.Frame
import proofs.«128670_j12489764897587_2_alg».proof.Proof.Gen.ReferenceIdeal
import proofs.«128670_j12489764897587_2_alg».proof.Proof.Gen.ReferenceIdeal.Run
import proofs.«128670_j12489764897587_2_alg».proof.Proof.Gen.ReferenceIdeal.Read
import proofs.«128670_j12489764897587_2_alg».proof.Proof.Gen.Pre_finite_inputs
import proofs.«128670_j12489764897587_2_alg».proof.Proof.RefSide
import proofs.«128670_j12489764897587_2_alg».proof.Proof.Whole
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, with what it says about the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From memories that agree on the arguments both programs end with the specification's linear map of the
    arguments: the kernel by its run read back through its blocks, the reference by its run read one operation
    at a time. -/
theorem algebraic : Cert.algebraic_KernelIdeal_ReferenceIdeal := by
  intro m ρ m' ρ' _ hagree
  refine ⟨fun c => Cert.Spec.linear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
